-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x64 .f32) (main_arg2 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x64 : Shape := ⟨2, ![4096, 64]⟩
abbrev S4096x4096 : Shape := ⟨2, ![4096, 4096]⟩
abbrev S4096x64x1 : Shape := ⟨3, ![4096, 64, 1]⟩
abbrev S4096x1x64 : Shape := ⟨3, ![4096, 1, 64]⟩
abbrev S4096x64x64 : Shape := ⟨3, ![4096, 64, 64]⟩
abbrev S128x4096 : Shape := ⟨2, ![128, 4096]⟩

abbrev nBuf : Space → Nat
  | .hbm => 13
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x64x1, .f32⟩
  | .hbm, ⟨4, _⟩ => ⟨S4096x1x64, .f32⟩
  | .hbm, ⟨5, _⟩ => ⟨S4096x64x64, .f32⟩
  | .hbm, ⟨6, _⟩ => ⟨S4096x64x64, .f32⟩
  | .hbm, ⟨7, _⟩ => ⟨S4096x64x64, .f32⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x4096, .bf16⟩
  | .hbm, ⟨12, _⟩ => ⟨S4096x4096, .f32⟩
  | .local _ .vmem, ⟨0, _⟩ => ⟨S128x4096, .bf16⟩
  | .local _ .vmem, ⟨1, _⟩ => ⟨S128x4096, .bf16⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  shapeCasts_S4096x64x64_S4096x4096 : S4096x64x64.ShapeCasts S4096x4096
  bitsLt_bf16_f32 : FTy.bits .bf16 < FTy.bits .f32
  transposes_S4096x4096_S4096x4096_1_0 : S4096x4096.Transposes [1, 0] S4096x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .bf16 = 32 ∨ (Rect.block (s := S4096x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v6) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S4096x64x1 : Shape := ⟨3, ![4096, 64, 1]⟩
abbrev S4096x1x64 : Shape := ⟨3, ![4096, 1, 64]⟩
abbrev S4096x64x64 : Shape := ⟨3, ![4096, 64, 64]⟩

abbrev nBuf : Space → Nat
  | .hbm => 11
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x64x1, .f32⟩
  | .hbm, ⟨4, _⟩ => ⟨S4096x1x64, .f32⟩
  | .hbm, ⟨5, _⟩ => ⟨S4096x64x64, .f32⟩
  | .hbm, ⟨6, _⟩ => ⟨S4096x64x64, .f32⟩
  | .hbm, ⟨7, _⟩ => ⟨S4096x64x64, .f32⟩
  | .hbm, ⟨8, _⟩ => ⟨S4096x4096, .f32⟩
  | .hbm, ⟨9, _⟩ => ⟨S4096x4096, .f32⟩
  | .hbm, ⟨10, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  shapeCasts_S4096x64x64_S4096x4096 : S4096x64x64.ShapeCasts S4096x4096
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.Body.lean ====
/-
  What the kernel body stores, read at an entry. The body loads its two whole blocks — 128 rows of the expanded
  operand, and the whole exchanged coefficient table — and stores their matrix product, accumulated from zero:
  entry (p, q) of the stored block is ∑ₖ x (p, k) · w (k, q), k over the 4096 contracted positions.
-/
import proofs.«122103_j11536282157111_2_alg».proof.Proof.Gen.KernelIdeal.Skeleton
import proofs.«122103_j11536282157111_2_alg».proof.Proof.LibDense
import Idealize.ShloMosaic.Lib.Pipeline.Value

noncomputable section

namespace Cert.KernelIdeal.Body

open Cert.KernelIdeal Cert.KernelIdeal.Gen Idealize.ShloMosaic Idealize.ShloMosaic.ValueIdx

/-- The body's dimension numbers are the plain ones: contract the left operand's second axis with the right
    operand's first. -/
theorem dims_plain : dot_S128x4096_S4096x4096_S128x4096_1_0_0_1_n_n = DotDims.plain 128 4096 4096 := rfl

/-- Entry (p, q) of the stored block: the two re-shapings are of a shape to itself, and the product into the zero
    accumulator is the plain sum over the contracted axis. -/
theorem pay_apply (x : FVec Ideal S128x4096 .bf16) (w : FVec Ideal S4096x4096 .bf16) (p : Fin 128) (q : Fin 4096) :
    k0_pay1 (F := Ideal) x w (ix2 p q) = ∑ k : Fin 4096, x (ix2 p k) * w (ix2 k q) := by
  unfold k0_pay1
  rw [shapeCast_self, shapeCast_self]
  exact Cert.LibDense.plain_matmul_apply none x w p q

end Cert.KernelIdeal.Body

end
-- ==== Proof.Spec.lean ====
/-
  The contraction this certificate is about, as one function of the three argument arrays, index by index.

  For a batch row b, the two feature rows x (b, ·) and y (b, ·), 64 entries each, are expanded to their outer
  product and flattened row-major to 4096 entries: position k = 64·i + j holds x (b, i) · y (b, j), that is,
  x (b, k / 64) · y (b, k % 64). Entry (b, h) of the result contracts that expanded row with row h of the
  coefficient table cb:

      out (b, h) = ∑ₖ (x (b, k / 64) · y (b, k % 64)) · cb (h, k),      k over the 4096 flattened positions.

  Both programs compute exactly this sum, with the factors in this order and grouping, so no law of the
  extended reals beyond reading each layout step at an index is needed, and finiteness of the inputs is never used.
-/
import Idealize.ShloMosaic.Lib.ValueIdx
import Idealize.ShloMosaic.PureOps.Ideal

noncomputable section

namespace Cert.TensorProduct

open Idealize.ShloMosaic Idealize.ShloMosaic.ValueIdx

/-- The row of a flattened 64 × 64 square that position k lies in. -/
def hi (k : Fin 4096) : Fin 64 := ⟨k.val / 64, by have h := k.isLt; omega⟩

/-- The column of a flattened 64 × 64 square that position k lies in. -/
def lo (k : Fin 4096) : Fin 64 := ⟨k.val % 64, Nat.mod_lt _ (by decide)⟩

/-- The expanded outer product of the feature rows: entry (b, k) is x (b, k / 64) · y (b, k % 64). -/
def outer (x y : FVec Ideal ⟨2, ![4096, 64]⟩ .f32) : FVec Ideal ⟨2, ![4096, 4096]⟩ .f32 :=
  fun i => x (ix2 (i 0 : Fin 4096) (hi (i 1))) * y (ix2 (i 0 : Fin 4096) (lo (i 1)))

/-- The coefficient table with its two axes exchanged: entry (k, h) is cb (h, k). -/
def flip (cb : FVec Ideal ⟨2, ![4096, 4096]⟩ .f32) : FVec Ideal ⟨2, ![4096, 4096]⟩ .f32 :=
  fun i => cb (ix2 (i 1 : Fin 4096) (i 0 : Fin 4096))

/-- Rows of e against columns of w: entry (b, h) is ∑ₖ e (b, k) · w (k, h). The operands may be of any float
    format: at the exact instance every format's values are the extended reals. -/
def rowsDot {φ₁ φ₂ : FTy} (e : FVec Ideal ⟨2, ![4096, 4096]⟩ φ₁) (w : FVec Ideal ⟨2, ![4096, 4096]⟩ φ₂) :
    FVec Ideal ⟨2, ![4096, 4096]⟩ .f32 :=
  fun i => ∑ k : Fin 4096, e (ix2 (i 0 : Fin 4096) k) * w (ix2 k (i 1 : Fin 4096))

/-- THE RESULT: out (b, h) = ∑ₖ (x (b, k / 64) · y (b, k % 64)) · cb (h, k). -/
def G (x y : FVec Ideal ⟨2, ![4096, 64]⟩ .f32) (cb : FVec Ideal ⟨2, ![4096, 4096]⟩ .f32) :
    FVec Ideal ⟨2, ![4096, 4096]⟩ .f32 :=
  rowsDot (outer x y) (flip cb)

/-- The result spelt out at an entry. -/
theorem G_apply (x y : FVec Ideal ⟨2, ![4096, 64]⟩ .f32) (cb : FVec Ideal ⟨2, ![4096, 4096]⟩ .f32) (b h : Fin 4096) :
    G x y cb (ix2 b h) = ∑ k : Fin 4096, (x (ix2 b (hi k)) * y (ix2 b (lo k))) * cb (ix2 h k) := rfl

end Cert.TensorProduct

end
-- ==== Proof.Blocks.lean ====
/-
  From blocks to the whole array. The grid has 32 points; point t works on rows 128·t … 128·t + 127: it reads
  those rows of the expanded operand e, the whole exchanged table w, and writes those rows of the result. So
  what point t writes back is rows 128·t … 128·t + 127 of ONE array, entry (b, h) ↦ ∑ₖ e (b, k) · w (k, h), the
  32 row bands cover the result, and the result array ends as that function of the two operands the region
  finds.
-/
import proofs.«122103_j11536282157111_2_alg».proof.Proof.Gen.KernelIdeal.Value
import proofs.«122103_j11536282157111_2_alg».proof.Proof.Body
import proofs.«122103_j11536282157111_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx Cert.TensorProduct
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the grid: the row operand and the result move one band of 128 rows per point,
    the table stays where it is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE BAND, over variables: if x is rows 128·T … of e and v is the whole of w, then entry j of the body's
    stored block is the entry of `rowsDot e w` at row 128·T + j₀, column j₁. -/
theorem band_entry (e w : FVec Ideal S4096x4096 .bf16) (x : FVec Ideal S128x4096 .bf16) (v : FVec Ideal S4096x4096 .bf16)
    (T : ℕ) (hx : ∀ (p : Fin 128) (k : Fin 4096) (r : Fin 4096), r.val = T * 128 + p.val → x (ix2 p k) = e (ix2 r k))
    (hv : ∀ (k q : Fin 4096), v (ix2 k q) = w (ix2 k q))
    (j : S128x4096.Idx) (i : S4096x4096.Idx) (h0 : (i 0).val = T * 128 + (j 0).val) (h1 : (i 1).val = (j 1).val) :
    k0_pay1 (F := Ideal) x v j = rowsDot e w i := by
  obtain ⟨p, q, rfl⟩ : ∃ (p : Fin 128) (q : Fin 4096), j = ix2 p q := ⟨j 0, j 1, eq_ix2 j⟩
  obtain ⟨r, s, rfl⟩ : ∃ (r : Fin 4096) (s : Fin 4096), i = ix2 r s := ⟨i 0, i 1, eq_ix2 i⟩
  have hs : s = q := Fin.ext h1
  subst hs
  rw [Body.pay_apply]
  unfold rowsDot
  exact Finset.sum_congr rfl fun k _ => by rw [hx p k r h0, hv k s]

/-- WHAT POINT t WRITES BACK is band t of `rowsDot` of the two operands as the region finds them. -/
theorem flushed_eq (c : Dev nD) (t : Fin cfg0.N) :
    (dats m 0 c).flushed 2 t
      = ((cfg0.win 2).blk t).view.read (Elt Ideal) (rowsDot (φ₁ := .bf16) (φ₂ := .bf16) (V m c main_v6) (V m c main_v8)) := by
  rw [Value.flushed2]
  unfold out0_2
  rw [View.canon_unit_zero zeros]
  simp only [View.ld_unit_zero (S := S128x4096) zeros, View.ld_unit_zero (S := S4096x4096) zeros]
  obtain ⟨e0, e1, e2, e3, e4, e5⟩ := idx_facts t
  funext j
  refine band_entry (V m c main_v6) (V m c main_v8) (iblk m c 0 t) (iblk m c 1 t) t.val ?_ ?_ j
    (((cfg0.win 2).blk t).view.emb j) ?_ ?_
  · intro p k r hr
    show V m c main_v6 (((cfg0.win 0).blk t).view.emb (ix2 p k)) = V m c main_v6 (ix2 r k)
    refine congrArg _ (funext fun a => Fin.ext ?_)
    match a with
    | ⟨0, _⟩ => show win0_0.index t (0 : Fin 2) * 128 + 1 * p.val = r.val; omega
    | ⟨1, _⟩ => show win0_0.index t (1 : Fin 2) * 4096 + 1 * k.val = k.val; omega
  · intro k q
    show V m c main_v8 (((cfg0.win 1).blk t).view.emb (ix2 k q)) = V m c main_v8 (ix2 k q)
    refine congrArg _ (funext fun a => Fin.ext ?_)
    match a with
    | ⟨0, _⟩ => show win0_1.index t (0 : Fin 2) * 4096 + 1 * k.val = k.val; omega
    | ⟨1, _⟩ => show win0_1.index t (1 : Fin 2) * 4096 + 1 * q.val = q.val; omega
  · show win0_2.index t (0 : Fin 2) * 128 + 1 * (j 0).val = t.val * 128 + (j 0).val; omega
  · show win0_2.index t (1 : Fin 2) * 4096 + 1 * (j 1).val = (j 1).val; omega

/-- An index of the result is in point t's band iff each coordinate is in the band's range on its axis. -/
theorem mem_blk (t : Fin cfg0.N) (i : S4096x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v9).slice (win0_2.rect t)).set ↔ _
  rw [View.set_slice_whole, Rect.mem_set_unit]
  exact Iff.rfl

/-- THE COVER: row b of the result lies in the band of point b / 128. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 0).val / 128 < cfg0.N := by show (i 0).val / 128 < grid0.N; rw [N_0]; omega
  obtain ⟨e0, e1, e2, e3, e4, e5⟩ := idx_facts ⟨(i 0).val / 128, hN⟩
  refine ⟨⟨(i 0).val / 128, hN⟩, flush0_2 _, ?_⟩
  rw [mem_blk]
  intro a
  match a with
  | ⟨0, _⟩ =>
    show win0_2.index ⟨(i 0).val / 128, hN⟩ (0 : Fin 2) * 128 ≤ (i 0).val
      ∧ (i 0).val < win0_2.index ⟨(i 0).val / 128, hN⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, hN⟩ (1 : Fin 2) * 4096 ≤ (i 1).val
      ∧ (i 1).val < win0_2.index ⟨(i 0).val / 128, hN⟩ (1 : Fin 2) * 4096 + 4096
    rw [e5]; omega

/-- THE RESULT ARRAY after the run, as a function of the two operands the region finds. -/
theorem final (c : Dev nD) :
    (dats m 0 c).arrAt 2 cfg0.N = rowsDot (φ₁ := .bf16) (φ₂ := .bf16) (V m c main_v6) (V m c main_v8) :=
  (dats m 0 c).arrAt_eq_of_cover 2 (rowsDot (φ₁ := .bf16) (φ₂ := .bf16) (V m c main_v6) (V m c main_v8)) (fun t _ => flushed_eq m c t) cover

end Cert.KernelIdeal.Blocks

end
-- ==== Proof.KernelHost.lean ====
/-
  What the region finds in its two operands. Before the region the host expands the two feature arrays exactly
  as the reference does (unit axes, spreads, product, flattening) and narrows the result to bf16; and it exchanges
  the coefficient table's axes and narrows that. At the exact instance narrowing changes nothing.
-/
import proofs.«122103_j11536282157111_2_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The expanded operand, as the host's operations of the two feature arrays. -/
def expanded (x y : FVec Ideal S4096x64 .f32) : FVec Ideal S4096x4096 .bf16 :=
  truncf .bf16 (shapeCast S4096x4096 (mulf
      (broadcastInDim S4096x64x64 ![0, 1, 2] bcast_S4096x64x1_S4096x64x64_0_1_2 (broadcastInDim S4096x64x1 ![0, 1] bcast_S4096x64_S4096x64x1_0_1 x))
      (broadcastInDim S4096x64x64 ![0, 1, 2] bcast_S4096x1x64_S4096x64x64_0_1_2 (broadcastInDim S4096x1x64 ![0, 2] bcast_S4096x64_S4096x1x64_0_2 y)))
    shapeCasts_S4096x64x64_S4096x4096) bitsLt_bf16_f32

/-- The exchanged table, as the host's operations of the coefficient table. -/
def exchanged (cb : FVec Ideal S4096x4096 .f32) : FVec Ideal S4096x4096 .bf16 :=
  truncf .bf16 (transpose S4096x4096 [1, 0] cb transposes_S4096x4096_S4096x4096_1_0) bitsLt_bf16_f32

/-- The region's first operand is the expanded operand of the two feature arguments as launched. -/
theorem V_v6 (c : Dev nD) :
    (V m c main_v6 : S4096x4096.Idx → Ideal .bf16)
      = expanded (m ((c : Thread nD τ).loc main_arg0)) (m ((c : Thread nD τ).loc main_arg1)) := by
  dsimp only [Gen.V, Gen.hostOps0]
  after_results
  rfl

/-- The region's second operand is the exchanged table of the third argument as launched. -/
theorem V_v8 (c : Dev nD) :
    (V m c main_v8 : S4096x4096.Idx → Ideal .bf16) = exchanged (m ((c : Thread nD τ).loc main_arg2)) := by
  dsimp only [Gen.V, Gen.hostOps0]
  after_results
  rfl

end Cert.KernelIdeal.HostSide

end
-- ==== Proof.RefValue.lean ====
/-
  The reference, read at an entry. Its eight host operations are: the two feature arrays given a unit axis each
  and spread to [4096, 64, 64], multiplied, and flattened to [4096, 4096] — the expanded outer product —; the
  coefficient table with its axes exchanged; and the product of the two, contracting the flattened axis. Read at an
  index, step by step, that is the specification's `G`.
-/
import proofs.«122103_j11536282157111_2_alg».proof.Proof.Gen.ReferenceIdeal.Read
import proofs.«122103_j11536282157111_2_alg».proof.Proof.Spec

noncomputable section

namespace Cert.ReferenceIdeal.RefValue

open Cert.ReferenceIdeal Cert.ReferenceIdeal.Read Idealize.ShloMosaic Idealize.ShloMosaic.ValueIdx Cert.TensorProduct

/-- The flattened product of the two spread arrays is the expanded outer product: flattened position
    (b, k) of [4096, 64, 64] is (b, k / 64, k % 64), where the first spread array holds x (b, k / 64) and the second
    y (b, k % 64). -/
theorem expanded_eq (x y : FVec Ideal S4096x64 .f32) : val_main_v5 (F := Ideal) x y = outer x y := by
  funext i
  obtain ⟨b, k, rfl⟩ : ∃ (b : Fin 4096) (k : Fin 4096), i = ix2 b k := ⟨i 0, i 1, eq_ix2 i⟩
  rw [val_main_v5_apply, val_main_v4_apply, val_main_v2_apply, val_main_v0_apply, val_main_v3_apply, val_main_v1_apply]
  have hb : b.val < 4096 := b.isLt
  have hk : k.val < 4096 := k.isLt
  have hx : idx_main_v0 (idx_main_v2 (idx_main_v5 (ix2 b k))) = ix2 b (hi k) := funext fun a => Fin.ext (by
    match a with
    | ⟨0, _⟩ => show (b.val * 4096 + k.val) / 4096 = b.val; omega
    | ⟨1, _⟩ => show (b.val * 4096 + k.val) / 64 % 64 = k.val / 64; omega)
  have hy : idx_main_v1 (idx_main_v3 (idx_main_v5 (ix2 b k))) = ix2 b (lo k) := funext fun a => Fin.ext (by
    match a with
    | ⟨0, _⟩ => show (b.val * 4096 + k.val) / 4096 = b.val; omega
    | ⟨1, _⟩ => show (b.val * 4096 + k.val) % 64 = k.val % 64; omega)
  rw [hx, hy]
  rfl

/-- The transposed table is the table with its axes exchanged. -/
theorem flipped_eq (cb : FVec Ideal S4096x4096 .f32) : val_main_v6 (F := Ideal) cb = flip cb := by
  funext i
  rw [val_main_v6_apply]
  exact congrArg cb (funext fun a => Fin.ext (by
    match a with
    | ⟨0, _⟩ => rfl
    | ⟨1, _⟩ => rfl))

/-- THE REFERENCE'S RESULT is `G` of the three argument arrays. -/
theorem result_eq (x y : FVec Ideal S4096x64 .f32) (cb : FVec Ideal S4096x4096 .f32) :
    val_main_v7 (F := Ideal) x y cb = G x y cb := by
  funext i
  rw [val_main_v7_apply, expanded_eq, flipped_eq]
  show ∑ k : Fin 4096, outer x y (lidx_main_v7 i k) * flip cb (ridx_main_v7 i k)
    = ∑ k : Fin 4096, outer x y (ix2 (i 0 : Fin 4096) k) * flip cb (ix2 k (i 1 : Fin 4096))
  refine Finset.sum_congr rfl fun k _ => ?_
  have hl : lidx_main_v7 i k = ix2 (i 0 : Fin 4096) k := funext fun a => Fin.ext (by
    match a with
    | ⟨0, _⟩ => rfl
    | ⟨1, _⟩ => rfl)
  have hr : ridx_main_v7 i k = ix2 k (i 1 : Fin 4096) := funext fun a => Fin.ext (by
    match a with
    | ⟨0, _⟩ => rfl
    | ⟨1, _⟩ => rfl)
  rw [hl, hr]
  rfl

end Cert.ReferenceIdeal.RefValue

end
-- ==== Proof.KernelValue.lean ====
/-
  The kernel's result as the specification's `G` of the three argument arrays. The region leaves
  `rowsDot e w` of the two operands it finds; the host prefix makes e the narrowed expanded outer product and w the
  narrowed exchanged table. The expansion is, operation for operation, the reference's (so it is `outer`, by the
  reading done on the reference's side), the exchange is `flip`, and narrowing is the identity at the exact instance.
-/
import proofs.«122103_j11536282157111_2_alg».proof.Proof.Blocks
import proofs.«122103_j11536282157111_2_alg».proof.Proof.KernelHost
import proofs.«122103_j11536282157111_2_alg».proof.Proof.RefValue

noncomputable section

namespace Cert.KernelIdeal.Whole

open Cert.KernelIdeal Cert.KernelIdeal.Gen Idealize.ShloMosaic Idealize.ShloMosaic.TcCoe Idealize.SL.Sem
open Cert.TensorProduct

variable (m : (ℓ : Loc nD τ sig) → Buf (Elt Ideal) ℓ) (ρ : Dev nD → PrngReg)

/-- Rows of the host's expanded operand against columns of its exchanged table is `G`: the two operands are the
    reference's own stages with a narrowing on top, which at the exact instance is the identity. -/
theorem rowsDot_host (x y : FVec Ideal S4096x64 .f32) (cb : FVec Ideal S4096x4096 .f32) :
    rowsDot (φ₁ := .bf16) (φ₂ := .bf16) (HostSide.expanded x y) (HostSide.exchanged cb) = G x y cb := by
  show rowsDot (φ₁ := .f32) (φ₂ := .f32) (Cert.ReferenceIdeal.Read.val_main_v5 (F := Ideal) x y)
    (Cert.ReferenceIdeal.Read.val_main_v6 (F := Ideal) cb) = _
  rw [Cert.ReferenceIdeal.RefValue.expanded_eq, Cert.ReferenceIdeal.RefValue.flipped_eq]
  rfl

/-- THE RESULT ARRAY after the run is `G` of the three arguments as launched. -/
theorem final (c : Dev nD) :
    (dats m 0 c).arrAt 2 cfg0.N
      = G (m ((c : Thread nD τ).loc main_arg0)) (m ((c : Thread nD τ).loc main_arg1)) (m ((c : Thread nD τ).loc main_arg2)) := by
  rw [Blocks.final, HostSide.V_v6, HostSide.V_v8]
  exact rowsDot_host _ _ _

/-- The kernel's run, its result named: every weakly fair execution ends with the result array at `G` of the
    arguments and the arguments unchanged. -/
theorem run : θ_run defs (onTc (τ := τ) (main (F := Ideal))) ⟨m, fun _ => 0, ρ⟩ fun r => ∀ c : Dev nD,
      r.2.mem ((c : Thread nD τ).loc main_v9)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one function. For batch row b and output column h,

      out (b, h) = ∑ₖ (in1 (b, k / 64) · in2 (b, k % 64)) · cb (h, k),        k over 4096 flattened positions:

  the two 64-entry feature rows are expanded to their outer product, flattened row-major, and contracted with row
  h of the coefficient table (`Cert.TensorProduct.G`, Proof/Spec.lean).

  The reference does the expansion, exchanges the table's axes, and multiplies the two [4096, 4096] arrays on the
  host (Proof/RefValue.lean reads its eight operations at an index). The kernel does the same expansion and
  exchange on the host, narrows both to bf16 — the identity on the extended reals — and multiplies in a region of 32
  grid points, point t producing rows 128·t … 128·t + 127 from those rows of the expanded operand and the whole
  table, accumulating from zero (Proof/Body.lean: the stored block at an entry; Proof/Blocks.lean: the 32 bands
  are bands of one array and cover it; Proof/KernelHost.lean: what the region finds in its operands;
  Proof/KernelValue.lean: the result array is `G`). Both sums run over the same index in the same grouping, so
  the two results agree term by term: no rearrangement of a sum and no law that could fail at an infinity is
  used, and the finiteness of the inputs is not needed for the equality.

  The three frames are the generated ones (the reference's is its generated run with the result dropped); the
  kernel's idealization rewrote no operation, so that conjunct is trivial.
-/
import proofs.«122103_j11536282157111_2_alg».proof.Defs
import proofs.«122103_j11536282157111_2_alg».proof.Proof.Gen.Kernel
import proofs.«122103_j11536282157111_2_alg».proof.Proof.Gen.Kernel.Skeleton
import proofs.«122103_j11536282157111_2_alg».proof.Proof.Gen.Kernel.Launch
import proofs.«122103_j11536282157111_2_alg».proof.Proof.Gen.Kernel.Points
import proofs.«122103_j11536282157111_2_alg».proof.Proof.Gen.Kernel.Frame
import proofs.«122103_j11536282157111_2_alg».proof.Proof.Gen.KernelIdeal
import proofs.«122103_j11536282157111_2_alg».proof.Proof.Gen.KernelIdeal.Skeleton
import proofs.«122103_j11536282157111_2_alg».proof.Proof.Gen.KernelIdeal.Launch
import proofs.«122103_j11536282157111_2_alg».proof.Proof.Gen.KernelIdeal.Points
import proofs.«122103_j11536282157111_2_alg».proof.Proof.Gen.KernelIdeal.Frame
import proofs.«122103_j11536282157111_2_alg».proof.Proof.Gen.ReferenceIdeal
import proofs.«122103_j11536282157111_2_alg».proof.Proof.Gen.Pre_finite_inputs
import proofs.«122103_j11536282157111_2_alg».proof.Proof.Gen.KernelIdeal.Value
import proofs.«122103_j11536282157111_2_alg».proof.Proof.Gen.ReferenceIdeal.Run
import proofs.«122103_j11536282157111_2_alg».proof.Proof.Gen.ReferenceIdeal.Read
import proofs.«122103_j11536282157111_2_alg».proof.Proof.KernelValue
import proofs.«122103_j11536282157111_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `G` of their arguments; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
